-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x2048x1024 .f32) (main_arg1 : FVec F S4x2048x1024 .f32) (main_arg2 : FVec F S1024x1024 .f32) (main_arg3 : FVec F S1024x1024 .f32) (main_arg4 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S1x256x1024 : Shape := ⟨3, ![1, 256, 1024]⟩
abbrev S1x2048x1024 : Shape := ⟨3, ![1, 2048, 1024]⟩
abbrev S2048x1024 : Shape := ⟨2, ![2048, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x256x1024, .f32⟩
  | .local _ .vmem, ⟨7, _⟩ => ⟨S1x256x1024, .f32⟩
  | .local _ .vmem, ⟨8, _⟩ => ⟨S2048x1024, .bf16⟩
  | .local _ .vmem, ⟨9, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  dot_S2048x1024_S1024x1024_S2048x1024_1_1_0_0_n_n_wf : DotDims.WF S2048x1024 S1024x1024 S2048x1024 [1] [1] [0] [0] [] []
  dot_S256x1024_S1024x1024_S256x1024_1_1_0_0_n_n_wf : DotDims.WF S256x1024 S1024x1024 S256x1024 [1] [1] [0] [0] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S4x2048x1024.size a
  hwx0_1 : ∀ i : grid0.Coords, EltTy.bits .f32 = 32 ∨ (Rect.block (s := S4x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S4x2048x1024.size a
  hwx0_5 : ∀ i : grid0.Coords, EltTy.bits .f32 = 32 ∨ (Rect.block (s := S4x2048x1024) S1x256x1024.size (cc0_transform_5 i) (hinb0_5 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x2048, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.AttnSpec.lean ====
/-
  Scaled dot-product attention with linear query / key / value layers, written once over the extended reals.

  For a query row `q`, key rows `K t` and value rows `V t` (t < 2048, each of 1024 features):
    score t  = (∑ d, q d · K t d) / 32
    top      = max over t of score t, starting from -∞
    e t      = exp (score t - top)
    out d    = ∑ t, (e t / ∑ t', e t') · V t d
  and the rows are themselves linear layers without bias, `x · Wᵀ`: feature `o` of row `(b, s)` is
  `∑ i, x (b, s, i) · W (o, i)`. Nothing here depends on how the rows are tiled or in which order a sum or a
  maximum is taken.
-/
import Idealize.ShloMosaic.PureOps.Ideal
import Idealize.ShloMosaic.Lib.ValueIdx

noncomputable section

open scoped BigOperators

namespace Cert.AttnSpec

open Idealize.ShloMosaic Idealize.ShloMosaic.ValueIdx

/-- An activation array, batch × sequence × features. -/
abbrev Act : Type := (⟨3, ![4, 2048, 1024]⟩ : Shape).Idx → EReal
/-- A weight matrix, output features × input features. -/
abbrev Wgt : Type := (⟨2, ![1024, 1024]⟩ : Shape).Idx → EReal

/-- The divisor of the scores: the float32 word of 32 = √1024. -/
abbrev scale : EReal := Ideal.ofBits .f32 0x42000000#32
/-- Where the running maximum starts: the float32 word of -∞. -/
abbrev lowest : EReal := Ideal.ofBits .f32 0xFF800000#32

/-- Feature `o` of the linear layer `x · Wᵀ` at row `(b, s)`. -/
def proj (x : Act) (w : Wgt) (b : Fin 4) (s : Fin 2048) (o : Fin 1024) : EReal :=
  ∑ i : Fin 1024, x (ix3 b s i) * w (ix2 o i)

/-- Row `(b, s)` of the linear layer, as a function of the output feature. -/
def row (x : Act) (w : Wgt) (b : Fin 4) (s : Fin 2048) : Fin 1024 → EReal := fun o => proj x w b s o

/-- All 2048 rows of batch element `b` of the linear layer. -/
def rows (x : Act) (w : Wgt) (b : Fin 4) : Fin 2048 → Fin 1024 → EReal := fun t => row x w b t

/-- The scaled score of a query row against key row `t`. -/
def rowScore (q : Fin 1024 → EReal) (K : Fin 2048 → Fin 1024 → EReal) (t : Fin 2048) : EReal :=
  Ideal.div (∑ d : Fin 1024, q d * K t d) scale

/-- The largest score of the row. -/
def rowTop (q : Fin 1024 → EReal) (K : Fin 2048 → Fin 1024 → EReal) : EReal :=
  (Finset.univ : Finset (Fin 2048)).fold max lowest (rowScore q K)

/-- The shifted exponential of score `t`. -/
def rowExp (q : Fin 1024 → EReal) (K : Fin 2048 → Fin 1024 → EReal) (t : Fin 2048) : EReal :=
  Ideal.exp (rowScore q K t - rowTop q K)

/-- The softmax denominator of the row. -/
def rowDen (q : Fin 1024 → EReal) (K : Fin 2048 → Fin 1024 → EReal) : EReal :=
  ∑ t : Fin 2048, rowExp q K t

/-- Feature `d` of the attention output of one query row. -/
def rowAttn (q : Fin 1024 → EReal) (K V : Fin 2048 → Fin 1024 → EReal) (d : Fin 1024) : EReal :=
  ∑ t : Fin 2048, Ideal.div (rowExp q K t) (rowDen q K) * V t d

/-- The whole map: queries from `x1`, keys and values from `x2`, attention within each batch element. -/
def attn (x1 x2 : Act) (wq wk wv : Wgt) : Act := fun i =>
  rowAttn (row x1 wq (i 0) (i 1)) (rows x2 wk (i 0)) (rows x2 wv (i 0)) (i 2)

theorem attn_apply (x1 x2 : Act) (wq wk wv : Wgt) (b : Fin 4) (s : Fin 2048) (d : Fin 1024) :
    attn x1 x2 wq wk wv (ix3 b s d) = rowAttn (row x1 wq b s) (rows x2 wk b) (rows x2 wv b) d := rfl

end Cert.AttnSpec

end
-- ==== Proof.RefIsAttn.lean ====
/-
  The reference program computes the attention map of AttnSpec: its einsums are the linear layers and the two
  contractions, its softmax the row's shifted exponentials over their sum. The one step that is not a re-indexing:
  the reference takes `max (-∞) (max over the row from -∞)`, and the outer maximum changes nothing.
-/
import proofs.«130732_j39676907887708_2_alg».proof.Proof.Gen.ReferenceIdeal.Read
import proofs.«130732_j39676907887708_2_alg».proof.Proof.AttnSpec
import Idealize.ShloMosaic.PureOps.Ideal.Laws

noncomputable section

open scoped BigOperators

namespace Cert.ReferenceIdeal.RefValue

open Cert.ReferenceIdeal Cert.ReferenceIdeal.Gen Cert.ReferenceIdeal.Read Cert.AttnSpec
open Idealize.ShloMosaic Idealize.ShloMosaic.ValueIdx

variable (x0 x1 : Act) (w2 w3 w4 : Wgt)

/-- The query layer: `einsum('bsi,oi->bso', x1, w_q)` at `(b, s, o)`. -/
theorem q_apply (b : Fin 4) (s : Fin 2048) (o : Fin 1024) :
    val_main_v0 (F := Ideal) x0 w2 (ix3 b s o) = row x0 w2 b s o := by
  rw [val_main_v0_apply]
  unfold row proj
  refine Finset.sum_congr rfl fun k _ => ?_
  have e1 : lidx_main_v0 (ix3 b s o) k = ix3 b s k :=
    funext fun a => by match a with | ⟨0, _⟩ => rfl | ⟨1, _⟩ => rfl | ⟨2, _⟩ => rfl
  have e2 : ridx_main_v0 (ix3 b s o) k = ix2 o k :=
    funext fun a => by match a with | ⟨0, _⟩ => rfl | ⟨1, _⟩ => rfl
  rw [e1, e2]

/-- The key layer at `(b, t, o)`. -/
theorem k_apply (b : Fin 4) (t : Fin 2048) (o : Fin 1024) :
    val_main_v1 (F := Ideal) x1 w3 (ix3 b t o) = rows x1 w3 b t o := by
  rw [val_main_v1_apply]
  unfold rows row proj
  refine Finset.sum_congr rfl fun k _ => ?_
  have e1 : lidx_main_v1 (ix3 b t o) k = ix3 b t k :=
    funext fun a => by match a with | ⟨0, _⟩ => rfl | ⟨1, _⟩ => rfl | ⟨2, _⟩ => rfl
  have e2 : ridx_main_v1 (ix3 b t o) k = ix2 o k :=
    funext fun a => by match a with | ⟨0, _⟩ => rfl | ⟨1, _⟩ => rfl
  rw [e1, e2]

/-- The value layer at `(b, t, o)`. -/
theorem v_apply (b : Fin 4) (t : Fin 2048) (o : Fin 1024) :
    val_main_v2 (F := Ideal) x1 w4 (ix3 b t o) = rows x1 w4 b t o := by
  rw [val_main_v2_apply]
  unfold rows row proj
  refine Finset.sum_congr rfl fun k _ => ?_
  have e1 : lidx_main_v2 (ix3 b t o) k = ix3 b t k :=
    funext fun a => by match a with | ⟨0, _⟩ => rfl | ⟨1, _⟩ => rfl | ⟨2, _⟩ => rfl
  have e2 : ridx_main_v2 (ix3 b t o) k = ix2 o k :=
    funext fun a => by match a with | ⟨0, _⟩ => rfl | ⟨1, _⟩ => rfl
  rw [e1, e2]

/-- The scaled scores at `(b, s, t)`. -/
theorem score_apply (b : Fin 4) (s t : Fin 2048) :
    val_main_v5 (F := Ideal) x0 x1 w2 w3 (ix3 b s t) = rowScore (row x0 w2 b s) (rows x1 w3 b) t := by
  rw [val_main_v5_apply, val_main_v3_apply, val_main_v4_apply, val_main_cst_apply]
  unfold rowScore
  rw [Ideal.hostDivf_def, Ideal.ofBits_def]
  refine congrArg (Ideal.div · scale) (Finset.sum_congr rfl fun k _ => ?_)
  have e1 : lidx_main_v3 (ix3 b s t) k = ix3 b s k :=
    funext fun a => by match a with | ⟨0, _⟩ => rfl | ⟨1, _⟩ => rfl | ⟨2, _⟩ => rfl
  have e2 : ridx_main_v3 (ix3 b s t) k = ix3 b t k :=
    funext fun a => by match a with | ⟨0, _⟩ => rfl | ⟨1, _⟩ => rfl | ⟨2, _⟩ => rfl
  rw [e1, e2, q_apply, k_apply]

/-- The row maximum at `(b, s)`: the reduce folds `max` over the row from -∞, and the maximum with -∞ taken
    afterwards is absorbed, the fold being already above its starting value. -/
theorem top_apply (b : Fin 4) (s : Fin 2048) :
    val_main_v8 (F := Ideal) x0 x1 w2 w3 (ix2 b s) = rowTop (row x0 w2 b s) (rows x1 w3 b) := by
  have hred : S4x2048x2048.Reduces [2] S4x2048 := by decide
  rw [val_main_v8_apply, val_main_v7_apply, val_main_cst_1_apply]
  unfold val_main_v6
  rw [Host.reduce_eq_fold_single FloatOps.maximumf _ _ reducesTo_S4x2048x2048_S4x2048_d2 hred h_S_ (ix2 b s)]
  have hf : (val_main_v5 (F := Ideal) x0 x1 w2 w3 ∘ hred.lift (ix2 b s)) = rowScore (row x0 w2 b s) (rows x1 w3 b) := by
    refine funext fun (t : Fin 2048) => ?_
    have e : hred.lift (ix2 b s) t = ix3 b s t :=
      funext fun a => Fin.ext (by match a with | ⟨0, _⟩ => rfl | ⟨1, _⟩ => rfl | ⟨2, _⟩ => rfl)
    show val_main_v5 (F := Ideal) x0 x1 w2 w3 (hred.lift (ix2 b s) t) = _
    rw [e, score_apply]
  rw [hf, val_main_cst_0_apply]
  show max lowest ((Finset.univ : Finset (Fin 2048)).fold max lowest (rowScore (row x0 w2 b s) (rows x1 w3 b))) = _
  exact max_eq_right ((Finset.le_fold_max _).mpr (Or.inl le_rfl))

/-- The shifted exponentials at `(b, s, t)`. -/
theorem exp_apply (b : Fin 4) (s t : Fin 2048) :
    val_main_v12 (F := Ideal) x0 x1 w2 w3 (ix3 b s t) = rowExp (row x0 w2 b s) (rows x1 w3 b) t := by
  rw [val_main_v12_apply, val_main_v11_apply, val_main_v10_apply, val_main_v9_apply]
  have e1 : idx_main_v9 (idx_main_v10 (ix3 b s t)) = ix2 b s :=
    funext fun a => by match a with | ⟨0, _⟩ => rfl | ⟨1, _⟩ => rfl
  rw [e1, score_apply, top_apply]
  rfl

/-- The softmax denominators at `(b, s)`: the reduce adds the row to the zero it starts from. -/
theorem den_apply (b : Fin 4) (s : Fin 2048) :
    val_main_v13 (F := Ideal) x0 x1 w2 w3 (ix2 b s) = rowDen (row x0 w2 b s) (rows x1 w3 b) := by
  rw [val_main_v13_apply, val_main_cst_2_apply, Ideal.ofBits_def, Ideal.ofBits_zero_f32, zero_add]
  unfold rowDen
  refine Finset.sum_congr rfl fun k _ => ?_
  have e : idx_main_v13 (ix2 b s) k = ix3 b s k :=
    funext fun a => by match a with | ⟨0, _⟩ => rfl | ⟨1, _⟩ => rfl | ⟨2, _⟩ => rfl
  rw [e, exp_apply]

/-- The attention weights at `(b, s, t)`. -/
theorem weight_apply (b : Fin 4) (s t : Fin 2048) :
    val_main_v16 (F := Ideal) x0 x1 w2 w3 (ix3 b s t)
      = Ideal.div (rowExp (row x0 w2 b s) (rows x1 w3 b) t) (rowDen (row x0 w2 b s) (rows x1 w3 b)) := by
  rw [val_main_v16_apply, val_main_v15_apply, val_main_v14_apply]
  have e1 : idx_main_v14 (idx_main_v15 (ix3 b s t)) = ix2 b s :=
    funext fun a => by match a with | ⟨0, _⟩ => rfl | ⟨1, _⟩ => rfl
  rw [e1, exp_apply, den_apply]
  rfl

/-- THE REFERENCE IS THE ATTENTION MAP. -/
theorem ref_eq : val_main_v17 (F := Ideal) x0 x1 w2 w3 w4 = attn x0 x1 w2 w3 w4 := by
  funext i
  obtain ⟨b, s, d, rfl⟩ : ∃ (b : Fin 4) (s : Fin 2048) (d : Fin 1024), i = ix3 b s d := ⟨i 0, i 1, i 2, eq_ix3 i⟩
  rw [attn_apply, val_main_v17_apply]
  unfold rowAttn
  refine Finset.sum_congr rfl fun t _ => ?_
  have e1 : lidx_main_v17 (ix3 b s d) t = ix3 b s t :=
    funext fun a => by match a with | ⟨0, _⟩ => rfl | ⟨1, _⟩ => rfl | ⟨2, _⟩ => rfl
  have e2 : ridx_main_v17 (ix3 b s d) t = ix3 b t d :=
    funext fun a => by match a with | ⟨0, _⟩ => rfl | ⟨1, _⟩ => rfl | ⟨2, _⟩ => rfl
  rw [e1, e2, weight_apply, v_apply]

end Cert.ReferenceIdeal.RefValue

end
-- ==== Proof.GridPieces.lean ====
/-
  What one run of the kernel body leaves behind, as values. At the first query block of a batch element the body
  stores the key rows and the value rows whole, reads both back, and stores the output block computed from them;
  at the other query blocks it stores only the output block, computed from the rows it finds. Each buffer is
  written by one store covering it, so what it holds afterwards is that store's payload.
-/
import proofs.«130732_j39676907887708_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First query block of a batch element: the key rows the body leaves. -/
theorem keys_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x256x1024 .f32) (harg7 : arg7.IsWhole) (arg8 : Memref sig .tc .vmem S2048x1024 .bf16) (harg8 : arg8.IsWhole) (arg9 : Memref sig .tc .vmem S2048x1024 .bf16) (harg9 : arg9.IsWhole) (hc0 : cond0_0 i) (x0 : Vec F S1x256x1024 .f32) (x1 : Vec F S1x2048x1024 .f32) (x2 : Vec F S1024x1024 .bf16) (x3 : Vec F S1024x1024 .bf16) (x4 : Vec F S1024x1024 .bf16) :
    sout0_A_0 c i arg2 harg2 arg3 harg3 arg4 harg4 arg5 harg5 arg6 harg6 arg7 harg7 arg8 harg8 arg9 harg9 hc0 x0 x1 x2 x3 x4 = k0_pay2 x1 x3 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg3.read_unread, harg5.read_unread, View.ld_unit_zero (S := S1x2048x1024) hz3,
    View.ld_unit_zero (S := S1024x1024) hz2]

/-- First query block of a batch element: the value rows the body leaves. -/
theorem vals_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x256x1024 .f32) (harg7 : arg7.IsWhole) (arg8 : Memref sig .tc .vmem S2048x1024 .bf16) (harg8 : arg8.IsWhole) (arg9 : Memref sig .tc .vmem S2048x1024 .bf16) (harg9 : arg9.IsWhole) (hc0 : cond0_0 i) (x0 : Vec F S1x256x1024 .f32) (x1 : Vec F S1x2048x1024 .f32) (x2 : Vec F S1024x1024 .bf16) (x3 : Vec F S1024x1024 .bf16) (x4 : Vec F S1024x1024 .bf16) :
    sout0_A_1 c i arg2 harg2 arg3 harg3 arg4 harg4 arg5 harg5 arg6 harg6 arg7 harg7 arg8 harg8 arg9 harg9 hc0 x0 x1 x2 x3 x4 = k0_pay3 x1 x4 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg3.read_unread, harg6.read_unread, View.ld_unit_zero (S := S1x2048x1024) hz3,
    View.ld_unit_zero (S := S1024x1024) hz2]

/-- First query block of a batch element: the output block, from the rows just stored and read back. -/
theorem out_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x256x1024 .f32) (harg7 : arg7.IsWhole) (arg8 : Memref sig .tc .vmem S2048x1024 .bf16) (harg8 : arg8.IsWhole) (arg9 : Memref sig .tc .vmem S2048x1024 .bf16) (harg9 : arg9.IsWhole) (hc0 : cond0_0 i) (x0 : Vec F S1x256x1024 .f32) (x1 : Vec F S1x2048x1024 .f32) (x2 : Vec F S1024x1024 .bf16) (x3 : Vec F S1024x1024 .bf16) (x4 : Vec F S1024x1024 .bf16) :
    out0_A_5 c i arg2 harg2 arg3 harg3 arg4 harg4 arg5 harg5 arg6 harg6 arg7 harg7 arg8 harg8 arg9 harg9 hc0 x0 x1 x2 x3 x4 = k0_pay4 x0 x2 (k0_pay2 x1 x3) (k0_pay3 x1 x4) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz3, View.readCov_unit_zero (S := S2048x1024) _ hz2, View.readCov_unit_zero (S := S2048x1024) _ hz2]
  simp only [View.readAt_eq_ld, harg2.read_unread, harg3.read_unread, harg4.read_unread, harg5.read_unread,
    harg6.read_unread, View.ld_unit_zero (S := S1x256x1024) hz3, View.ld_unit_zero (S := S1x2048x1024) hz3,
    View.ld_unit_zero (S := S1024x1024) hz2]

/-- A later query block: the output block, from the rows `xs0`, `xs1` the body finds. -/
theorem out_later (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x256x1024 .f32) (harg7 : arg7.IsWhole) (arg8 : Memref sig .tc .vmem S2048x1024 .bf16) (harg8 : arg8.IsWhole) (arg9 : Memref sig .tc .vmem S2048x1024 .bf16) (harg9 : arg9.IsWhole) (hc0 : ¬cond0_0 i) (x0 : Vec F S1x256x1024 .f32) (x1 : Vec F S1x2048x1024 .f32) (x2 : Vec F S1024x1024 .bf16) (x3 : Vec F S1024x1024 .bf16) (x4 : Vec F S1024x1024 .bf16) (xs0 xs1 : Vec F S2048x1024 .bf16) :
    out0_B_5 c i arg2 harg2 arg3 harg3 arg4 harg4 arg5 harg5 arg6 harg6 arg7 harg7 arg8 harg8 arg9 harg9 hc0 x0 x1 x2 x3 x4 xs0 xs1 = k0_pay4 x0 x2 xs0 xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  rw [View.canon_unit_zero hz3]
  simp only [View.readAt_eq_ld, harg2.read_unread, harg4.read_unread, harg8.read_unread, harg9.read_unread,
    View.ld_unit_zero (S := S1x256x1024) hz3, View.ld_unit_zero (S := S1024x1024) hz2, View.ld_unit_zero (S := S2048x1024) hz2]

end Cert.KernelIdeal.Pieces

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibRowReads.lean ====
import Idealize.ShloMosaic.Lib.Pipeline.Value
import Idealize.ShloMosaic.Lib.ValueIdx
import Idealize.ShloMosaic.Lib.Affine
import Idealize.ShloMosaic.PureOps.Ideal.Laws

/-!
# Rows of a matrix: sums and maxima along the last axis, and a comparison bit as a number

General facts, over the extended reals, about an `[a, b]` array reduced along its last axis, read at a row:

* a kernel's lane sum is the sum of the row; a kernel's lane maximum and the host's maximum-reduce are the fold of
  `max` over the row from the initial value;
* the bit of an integer equality test, widened and read as a signed or as an unsigned integer, is 1 or 0;
* two naturals below `2 ^ 32` have equal 32-bit words only if they are equal.
-/

noncomputable section

open Idealize.ShloMosaic Idealize.ShloMosaic.ValueIdx

namespace Cert.RowReads

/-- Putting column `k` back into the reduced index `r` gives `(r, k)`. -/
theorem lift_last {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum of an `[a, b]` matrix, read at row `r`, is the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- A lane maximum of an `[a, b]` matrix, read at row `r`, is the fold of `max` over that row from the
    accumulator's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => Finset.fold max (Ideal.ofBits .f32 acc) f (Finset.univ : Finset (Fin b)))
    (funext fun k => congrArg src (lift_last h r k))

/-- The host's maximum-reduce of an `[a, b]` matrix along its last axis, read at row `r`: the same fold, from the
    initial value's one element. -/
theorem hostRowMax_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_last h r k))

/-! ## A comparison bit as a number -/

/-- The mask entry of two words: 1 when they are equal, else 0. -/
def mask01 (x y : BitVec 32) : EReal := if x = y then 1 else 0

/-- The comparison bit widened to a word and read as a signed integer is that mask entry. -/
theorem sext_cmpi_eq (x y : BitVec 32) :
    ((((IntOp.cmpi .eq x y).setWidth 32).toInt : ℝ) : EReal) = mask01 x y := by
  unfold mask01
  by_cases h : x = y
  · rw [IntOp.cmpi_eq.mpr h, if_pos h, show ((1#1 : BitVec 1).setWidth 32).toInt = 1 by decide]
    simp
  · rw [eq_zero_of_ne_one (fun hc => h (IntOp.cmpi_eq.mp hc)), if_neg h,
      show ((0#1 : BitVec 1).setWidth 32).toInt = 0 by decide]
    simp

/-- The comparison bit read as an unsigned integer is the same mask entry. -/
theorem uext_cmpi_eq (x y : BitVec 32) : ((((IntOp.cmpi .eq x y).toNat : ℝ)) : EReal) = mask01 x y := by
  unfold mask01
  by_cases h : x = y
  · rw [IntOp.cmpi_eq.mpr h, if_pos h, show (1#1 : BitVec 1).toNat = 1 by decide]
    simp
  · rw [eq_zero_of_ne_one (fun hc => h (IntOp.cmpi_eq.mp hc)), if_neg h, show (0#1 : BitVec 1).toNat = 0 by decide]
    simp

/-- Naturals below `2 ^ 32` with the same 32-bit word are equal. -/
theorem ofNat32_inj {p q : ℕ} (hp : p < 2 ^ 32) (hq : q < 2 ^ 32) : BitVec.ofNat 32 p = BitVec.ofNat 32 q ↔ p = q := by
  constructor
  · intro h
    have h2 := congrArg BitVec.toNat h
    simp only [BitVec.toNat_ofNat] at h2
    rwa [Nat.mod_eq_of_lt hp, Nat.mod_eq_of_lt hq] at h2
  · intro h; rw [h]

end Cert.RowReads

end
-- ==== Proof.KernelRows.lean ====
/-
  What one grid point of the kernel computes, stage by stage, each stage read at an index over the extended
  reals: the key / value rows it stores for a batch element (`x2 · Wᵀ` over the whole sequence), and for a block of
  256 query rows the query layer, the scaled scores against the stored keys, the row-wise softmax (maximum,
  shifted exponentials, their sum, the quotient) and the weighted sum of the stored values. A change of float
  format is the identity here, so the casts to and from the narrow format disappear.
-/
import proofs.«130732_j39676907887708_2_alg».proof.Proof.Gen.KernelIdeal.Skeleton
import proofs.«130732_j39676907887708_2_alg».proof.Proof.AttnSpec
import proofs.«130732_j39676907887708_2_alg».proof.Proof.LibKeepdims
import proofs.«130732_j39676907887708_2_alg».proof.Proof.LibRowReads
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Rows

open Cert.KernelIdeal Cert.KernelIdeal.Gen Cert.AttnSpec
open Idealize.ShloMosaic Idealize.ShloMosaic.ValueIdx

/-! ## The four matrix products, read at an entry -/

theorem mmKV_l0 (i : S2048x1024.Idx) (q : dot_S2048x1024_S1024x1024_S2048x1024_1_1_0_0_n_n.contr.Idx) : (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem mmKV_l1 (i : S2048x1024.Idx) (q : dot_S2048x1024_S1024x1024_S2048x1024_1_1_0_0_n_n.contr.Idx) : (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem mmKV_r0 (i : S2048x1024.Idx) (q : dot_S2048x1024_S1024x1024_S2048x1024_1_1_0_0_n_n.contr.Idx) : (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem mmKV_r1 (i : S2048x1024.Idx) (q : dot_S2048x1024_S1024x1024_S2048x1024_1_1_0_0_n_n.contr.Idx) : (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The product contracts the last axis of both operands: entry `(p, q)` is `∑ k, l (p, k) · r (q, k)`. -/
theorem mmKV_apply (l : FVec Ideal S2048x1024 .bf16) (r : FVec Ideal S1024x1024 .bf16) (p : Fin 2048) (q : Fin 1024) :
    matmul dot_S2048x1024_S1024x1024_S2048x1024_1_1_0_0_n_n none l r (constant S2048x1024 .f32 0x00000000#32) (ix2 p q)
      = ∑ k : Fin 1024, l (ix2 p k) * r (ix2 q k) := by
  simp only [matmul]
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p q) ((contrEquiv1 dot_S2048x1024_S1024x1024_S2048x1024_1_1_0_0_n_n 1024 rfl rfl).symm k) = ix2 p k := funext fun a => Fin.ext (by
    match a with
    | ⟨0, _⟩ => exact mmKV_l0 _ _
    | ⟨1, _⟩ => exact (mmKV_l1 _ _).trans hk)
  have er : dot_S2048x1024_S1024x1024_S2048x1024_1_1_0_0_n_n.rhsIdx (ix2 p q) ((contrEquiv1 dot_S2048x1024_S1024x1024_S2048x1024_1_1_0_0_n_n 1024 rfl rfl).symm k) = ix2 q k := funext fun a => Fin.ext (by
    match a with
    | ⟨0, _⟩ => exact mmKV_r0 _ _
    | ⟨1, _⟩ => exact (mmKV_r1 _ _).trans hk)
  rw [el, er]

theorem mmQ_l0 (i : S256x1024.Idx) (q : dot_S256x1024_S1024x1024_S256x1024_1_1_0_0_n_n.contr.Idx) : (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem mmQ_l1 (i : S256x1024.Idx) (q : dot_S256x1024_S1024x1024_S256x1024_1_1_0_0_n_n.contr.Idx) : (dot_S256x1024_S1024x1024_S256x1024_1_1_0_0_n_n.lhsIdx i q 1).val = (q ⟨0, by decide⟩).val :=
  dot_S256x1024_S1024x1024_S256x1024_1_1_0_0_n_n.lhsIdx_val_of_single rfl i q
theorem mmQ_r0 (i : S256x1024.Idx) (q : dot_S256x1024_S1024x1024_S256x1024_1_1_0_0_n_n.contr.Idx) : (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem mmQ_r1 (i : S256x1024.Idx) (q : dot_S256x1024_S1024x1024_S256x1024_1_1_0_0_n_n.contr.Idx) : (dot_S256x1024_S1024x1024_S256x1024_1_1_0_0_n_n.rhsIdx i q 1).val = (q ⟨0, by decide⟩).val :=
  dot_S256x1024_S1024x1024_S256x1024_1_1_0_0_n_n.rhsIdx_val_of_single rfl i q

/-- The product contracts the last axis of both operands: entry `(p, q)` is `∑ k, l (p, k) · r (q, k)`. -/
theorem mmQ_apply (l : FVec Ideal S256x1024 .bf16) (r : FVec Ideal S1024x1024 .bf16) (p : Fin 256) (q : Fin 1024) :
    matmul dot_S256x1024_S1024x1024_S256x1024_1_1_0_0_n_n none l r (constant S256x1024 .f32 0x00000000#32) (ix2 p q)
      = ∑ k : Fin 1024, l (ix2 p k) * r (ix2 q k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p q) ((contrEquiv1 dot_S256x1024_S1024x1024_S256x1024_1_1_0_0_n_n 1024 rfl rfl).symm k) = ix2 p k := funext fun a => Fin.ext (by
    match a with
    | ⟨0, _⟩ => exact mmQ_l0 _ _
    | ⟨1, _⟩ => exact (mmQ_l1 _ _).trans hk)
  have er : dot_S256x1024_S1024x1024_S256x1024_1_1_0_0_n_n.rhsIdx (ix2 p q) ((contrEquiv1 dot_S256x1024_S1024x1024_S256x1024_1_1_0_0_n_n 1024 rfl rfl).symm k) = ix2 q k := funext fun a => Fin.ext (by
    match a with
    | ⟨0, _⟩ => exact mmQ_r0 _ _
    | ⟨1, _⟩ => exact (mmQ_r1 _ _).trans hk)
  rw [el, er]

theorem mmS_l0 (i : S256x2048.Idx) (q : dot_S256x1024_S2048x1024_S256x2048_1_1_0_0_n_n.contr.Idx) : (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem mmS_l1 (i : S256x2048.Idx) (q : dot_S256x1024_S2048x1024_S256x2048_1_1_0_0_n_n.contr.Idx) : (dot_S256x1024_S2048x1024_S256x2048_1_1_0_0_n_n.lhsIdx i q 1).val = (q ⟨0, by decide⟩).val :=
  dot_S256x1024_S2048x1024_S256x2048_1_1_0_0_n_n.lhsIdx_val_of_single rfl i q
theorem mmS_r0 (i : S256x2048.Idx) (q : dot_S256x1024_S2048x1024_S256x2048_1_1_0_0_n_n.contr.Idx) : (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem mmS_r1 (i : S256x2048.Idx) (q : dot_S256x1024_S2048x1024_S256x2048_1_1_0_0_n_n.contr.Idx) : (dot_S256x1024_S2048x1024_S256x2048_1_1_0_0_n_n.rhsIdx i q 1).val = (q ⟨0, by decide⟩).val :=
  dot_S256x1024_S2048x1024_S256x2048_1_1_0_0_n_n.rhsIdx_val_of_single rfl i q

/-- The product contracts the last axis of both operands: entry `(p, q)` is `∑ k, l (p, k) · r (q, k)`. -/
theorem mmS_apply (l : FVec Ideal S256x1024 .bf16) (r : FVec Ideal S2048x1024 .bf16) (p : Fin 256) (q : Fin 2048) :
    matmul dot_S256x1024_S2048x1024_S256x2048_1_1_0_0_n_n none l r (constant S256x2048 .f32 0x00000000#32) (ix2 p q)
      = ∑ k : Fin 1024, l (ix2 p k) * r (ix2 q k) := by
  simp only [matmul]
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p q) ((contrEquiv1 dot_S256x1024_S2048x1024_S256x2048_1_1_0_0_n_n 1024 rfl rfl).symm k) = ix2 p k := funext fun a => Fin.ext (by
    match a with
    | ⟨0, _⟩ => exact mmS_l0 _ _
    | ⟨1, _⟩ => exact (mmS_l1 _ _).trans hk)
  have er : dot_S256x1024_S2048x1024_S256x2048_1_1_0_0_n_n.rhsIdx (ix2 p q) ((contrEquiv1 dot_S256x1024_S2048x1024_S256x2048_1_1_0_0_n_n 1024 rfl rfl).symm k) = ix2 q k := funext fun a => Fin.ext (by
    match a with
    | ⟨0, _⟩ => exact mmS_r0 _ _
    | ⟨1, _⟩ => exact (mmS_r1 _ _).trans hk)
  rw [el, er]

theorem mmO_l0 (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem mmO_l1 (i : S256x1024.Idx) (q : dot_S256x2048_S2048x1024_S256x1024_1_0_0_1_n_n.contr.Idx) : (dot_S256x2048_S2048x1024_S256x1024_1_0_0_1_n_n.lhsIdx i q 1).val = (q ⟨0, by decide⟩).val :=
  dot_S256x2048_S2048x1024_S256x1024_1_0_0_1_n_n.lhsIdx_val_of_single rfl i q
theorem mmO_r0 (i : S256x1024.Idx) (q : dot_S256x2048_S2048x1024_S256x1024_1_0_0_1_n_n.contr.Idx) : (dot_S256x2048_S2048x1024_S256x1024_1_0_0_1_n_n.rhsIdx i q 0).val = (q ⟨0, by decide⟩).val :=
  dot_S256x2048_S2048x1024_S256x1024_1_0_0_1_n_n.rhsIdx_val_of_single rfl i q
theorem mmO_r1 (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The last product contracts the weights' columns with the values' rows: entry `(p, d)` is `∑ t, l (p, t) · r (t, d)`. -/
theorem mmO_apply (l : FVec Ideal S256x2048 .bf16) (r : FVec Ideal S2048x1024 .bf16) (p : Fin 256) (d : Fin 1024) :
    matmul dot_S256x2048_S2048x1024_S256x1024_1_0_0_1_n_n none l r (constant S256x1024 .f32 0x00000000#32) (ix2 p d)
      = ∑ t : Fin 2048, l (ix2 p t) * r (ix2 t d) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p d) ((contrEquiv1 dot_S256x2048_S2048x1024_S256x1024_1_0_0_1_n_n 2048 rfl rfl).symm k) = ix2 p k := funext fun a => Fin.ext (by
    match a with
    | ⟨0, _⟩ => exact mmO_l0 _ _
    | ⟨1, _⟩ => exact (mmO_l1 _ _).trans hk)
  have er : dot_S256x2048_S2048x1024_S256x1024_1_0_0_1_n_n.rhsIdx (ix2 p d) ((contrEquiv1 dot_S256x2048_S2048x1024_S256x1024_1_0_0_1_n_n 2048 rfl rfl).symm k) = ix2 k d := funext fun a => Fin.ext (by
    match a with
    | ⟨0, _⟩ => exact (mmO_r0 _ _).trans hk
    | ⟨1, _⟩ => exact mmO_r1 _ _)
  rw [el, er]

/-! ## The rows stored for a batch element -/

/-- The stored rows: the whole sequence block of `x2` times a weight matrix transposed. -/
def kvRows (x : FVec Ideal S1x2048x1024 .f32) (w : FVec Ideal S1024x1024 .bf16) : FVec Ideal S2048x1024 .bf16 :=
  truncf .bf16 (matmul dot_S2048x1024_S1024x1024_S2048x1024_1_1_0_0_n_n none
    (truncf .bf16 (shapeCast S2048x1024 x shapeCasts_S1x2048x1024_S2048x1024) bitsLt_bf16_f32)
    (shapeCast S1024x1024 w shapeCasts_S1024x1024_S1024x1024) (constant S2048x1024 .f32 0x00000000#32)) bitsLt_bf16_f32

theorem kvRows_apply (x : FVec Ideal S1x2048x1024 .f32) (w : FVec Ideal S1024x1024 .bf16) (t : Fin 2048) (o : Fin 1024) :
    kvRows x w (ix2 t o) = ∑ i : Fin 1024, x (ix3 (0 : Fin 1) t i) * w (ix2 o i) := by
  show matmul (F := Ideal) dot_S2048x1024_S1024x1024_S2048x1024_1_1_0_0_n_n none _ _ _ (ix2 t o) = _
  rw [mmKV_apply]
  refine Finset.sum_congr rfl fun k _ => ?_
  rw [shapeCast_self]
  show shapeCast S2048x1024 x shapeCasts_S1x2048x1024_S2048x1024 (ix2 t k) * _ = _
  rw [shapeCast_1ab_ab_apply]

/-- The payload of the keys' store is `kvRows` (and so is the values'). -/
theorem pay2_eq (x : FVec Ideal S1x2048x1024 .f32) (w : FVec Ideal S1024x1024 .bf16) : k0_pay2 (F := Ideal) x w = kvRows x w := by
  unfold k0_pay2 k0_pay1
  exact shapeCast_self _ _
theorem pay3_eq (x : FVec Ideal S1x2048x1024 .f32) (w : FVec Ideal S1024x1024 .bf16) : k0_pay3 (F := Ideal) x w = kvRows x w := by
  unfold k0_pay3 k0_pay1
  exact shapeCast_self _ _

/-! ## A block of 256 query rows -/

/-- The query layer on the block. -/
def qBlock (x : FVec Ideal S1x256x1024 .f32) (wq : FVec Ideal S1024x1024 .bf16) : FVec Ideal S256x1024 .bf16 :=
  truncf .bf16 (matmul dot_S256x1024_S1024x1024_S256x1024_1_1_0_0_n_n none
    (truncf .bf16 (shapeCast S256x1024 x shapeCasts_S1x256x1024_S256x1024) bitsLt_bf16_f32)
    (shapeCast S1024x1024 wq shapeCasts_S1024x1024_S1024x1024) (constant S256x1024 .f32 0x00000000#32)) bitsLt_bf16_f32

theorem qBlock_apply (x : FVec Ideal S1x256x1024 .f32) (wq : FVec Ideal S1024x1024 .bf16) (r : Fin 256) (o : Fin 1024) :
    qBlock x wq (ix2 r o) = ∑ i : Fin 1024, x (ix3 (0 : Fin 1) r i) * wq (ix2 o i) := by
  show matmul (F := Ideal) dot_S256x1024_S1024x1024_S256x1024_1_1_0_0_n_n none _ _ _ (ix2 r o) = _
  rw [mmQ_apply]
  refine Finset.sum_congr rfl fun k _ => ?_
  rw [shapeCast_self]
  show shapeCast S256x1024 x shapeCasts_S1x256x1024_S256x1024 (ix2 r k) * _ = _
  rw [shapeCast_1ab_ab_apply]

/-- The scaled scores of the block against stored keys. -/
def scores (q : FVec Ideal S256x1024 .bf16) (ks : FVec Ideal S2048x1024 .bf16) : FVec Ideal S256x2048 .f32 :=
  divf (matmul dot_S256x1024_S2048x1024_S256x2048_1_1_0_0_n_n none q ks (constant S256x2048 .f32 0x00000000#32))
    (broadcast S256x2048 (Scalar.ofBits .f32 0x42000000#32))

theorem scores_apply (q : FVec Ideal S256x1024 .bf16) (ks : FVec Ideal S2048x1024 .bf16) (r : Fin 256) (t : Fin 2048) :
    scores q ks (ix2 r t) = rowScore (fun d => q (ix2 r d)) (fun t' d => ks (ix2 t' d)) t := by
  show Ideal.div (matmul dot_S256x1024_S2048x1024_S256x2048_1_1_0_0_n_n none q ks _ (ix2 r t)) scale = _
  rw [mmS_apply]
  rfl

/-- The row maxima, spread back over the row. -/
def tops (S : FVec Ideal S256x2048 .f32) : FVec Ideal S256x2048 .f32 :=
  broadcastTo S256x2048 (shapeCast S256x1 (multiReduction .maximumf [1] S256 S 0xFF800000#32 reduces_S256x2048_S256 (.inl rfl) rfl)
    shapeCasts_S256_S256x1) broadcasts_S256x1_S256x2048

theorem tops_apply (S : FVec Ideal S256x2048 .f32) (r : Fin 256) (t : Fin 2048) :
    tops S (ix2 r t) = (Finset.univ : Finset (Fin 2048)).fold max lowest (fun t' => S (ix2 r t')) := by
  unfold tops
  rw [Cert.Keepdims.broadcastTo_a1_ab_apply, Cert.Keepdims.shapeCast_a_a1_apply]
  exact Cert.RowReads.rowMax_apply S _ _ _ _ r

/-- The shifted exponentials. -/
def expos (S : FVec Ideal S256x2048 .f32) : FVec Ideal S256x2048 .f32 := exp (subf S (tops S))

theorem expos_apply (S : FVec Ideal S256x2048 .f32) (r : Fin 256) (t : Fin 2048) :
    expos S (ix2 r t) = Ideal.exp (S (ix2 r t) - (Finset.univ : Finset (Fin 2048)).fold max lowest (fun t' => S (ix2 r t'))) := by
  show Ideal.exp (S (ix2 r t) - tops S (ix2 r t)) = _
  rw [tops_apply]

/-- The row sums of the exponentials, spread back over the row. -/
def dens (S : FVec Ideal S256x2048 .f32) : FVec Ideal S256x2048 .f32 :=
  broadcastTo S256x2048 (shapeCast S256x1 (multiReduction .add [1] S256 (expos S) 0x00000000#32 reduces_S256x2048_S256 (.inl rfl) rfl)
    shapeCasts_S256_S256x1) broadcasts_S256x1_S256x2048

theorem dens_apply (S : FVec Ideal S256x2048 .f32) (r : Fin 256) (t : Fin 2048) :
    dens S (ix2 r t) = ∑ t' : Fin 2048, expos S (ix2 r t') := by
  unfold dens
  rw [Cert.Keepdims.broadcastTo_a1_ab_apply, Cert.Keepdims.shapeCast_a_a1_apply]
  exact Cert.RowReads.rowSum_apply (expos S) _ _ _ _ r

/-- The attention weights of the block. -/
def weights (S : FVec Ideal S256x2048 .f32) : FVec Ideal S256x2048 .bf16 :=
  truncf .bf16 (divf (expos S) (dens S)) bitsLt_bf16_f32

/-- The block's output: the weights times stored values, with a leading unit axis put back. -/
def outBlock (x : FVec Ideal S1x256x1024 .f32) (wq : FVec Ideal S1024x1024 .bf16) (ks vs : FVec Ideal S2048x1024 .bf16) :
    FVec Ideal S1x256x1024 .f32 :=
  shapeCast S1x256x1024 (matmul dot_S256x2048_S2048x1024_S256x1024_1_0_0_1_n_n none (weights (scores (qBlock x wq) ks)) vs (constant S256x1024 .f32 0x00000000#32))
    shapeCasts_S256x1024_S1x256x1024

/-- The payload of the output's store is `outBlock`. -/
theorem pay4_eq (x : FVec Ideal S1x256x1024 .f32) (wq : FVec Ideal S1024x1024 .bf16) (ks vs : FVec Ideal S2048x1024 .bf16) :
    k0_pay4 (F := Ideal) x wq ks vs = outBlock x wq ks vs := rfl

/-- A BLOCK OF QUERY ROWS: row `r`, feature `d` of the block's output is the attention of the row's query layer
    against the stored key and value rows. -/
theorem outBlock_apply (x : FVec Ideal S1x256x1024 .f32) (wq : FVec Ideal S1024x1024 .bf16) (ks vs : FVec Ideal S2048x1024 .bf16)
    (r : Fin 256) (d : Fin 1024) :
    outBlock x wq ks vs (ix3 (0 : Fin 1) r d)
      = rowAttn (fun o => ∑ i : Fin 1024, x (ix3 (0 : Fin 1) r i) * wq (ix2 o i)) (fun t o => ks (ix2 t o)) (fun t o => vs (ix2 t o)) d := by
  unfold outBlock
  rw [shapeCast_ab_1ab_apply, mmO_apply]
  unfold rowAttn
  have hq : (fun o => qBlock x wq (ix2 r o)) = fun o => ∑ i : Fin 1024, x (ix3 (0 : Fin 1) r i) * wq (ix2 o i) :=
    funext fun o => qBlock_apply x wq r o
  have hS : ∀ t : Fin 2048, scores (qBlock x wq) ks (ix2 r t)
      = rowScore (fun o => ∑ i : Fin 1024, x (ix3 (0 : Fin 1) r i) * wq (ix2 o i)) (fun t' o => ks (ix2 t' o)) t := fun t => by
    rw [scores_apply, hq]
  have hE : ∀ t : Fin 2048, expos (scores (qBlock x wq) ks) (ix2 r t)
      = rowExp (fun o => ∑ i : Fin 1024, x (ix3 (0 : Fin 1) r i) * wq (ix2 o i)) (fun t' o => ks (ix2 t' o)) t := fun t => by
    rw [expos_apply]
    unfold rowExp rowTop
    rw [hS t, funext hS]
  refine Finset.sum_congr rfl fun t _ => ?_
  refine congrArg (· * vs (ix2 t d)) ?_
  show Ideal.div (expos (scores (qBlock x wq) ks) (ix2 r t)) (dens (scores (qBlock x wq) ks) (ix2 r t)) = _
  rw [dens_apply, hE t]
  unfold rowDen
  rw [funext hE]

end Cert.KernelIdeal.Rows

end
-- ==== Proof.GridRun.lean ====
/-
  The kernel's result array, as one function of the argument arrays.

  The grid has 4 × 8 points: point `t` serves batch element `t / 8` and query rows `256·(t % 8) … + 255`. The key
  and value rows of a batch element are stored at its first point (`t % 8 = 0`) and found unchanged at its other
  seven; so after EVERY point the two stores hold the rows of the point's own batch element (by induction on the
  point). Hence what each point writes back is its block of the attention map, and the 32 blocks tile the result.
-/
import proofs.«130732_j39676907887708_2_alg».proof.Proof.Gen.KernelIdeal.Value
import proofs.«130732_j39676907887708_2_alg».proof.Proof.GridPieces
import proofs.«130732_j39676907887708_2_alg».proof.Proof.KernelRows
import proofs.«130732_j39676907887708_2_alg».proof.Proof.AttnSpec
import Idealize.ShloMosaic.Lib.Pipeline.Value
import Idealize.ShloMosaic.Lib.StableHlo.Run
import Idealize.ShloMosaic.Lib.Tactic

noncomputable section

open scoped BigOperators

namespace Cert.KernelIdeal.Grid

open Cert.KernelIdeal Cert.KernelIdeal.Gen Cert.KernelIdeal.Value Cert.KernelIdeal.Rows Cert.KernelIdeal.Pieces Cert.AttnSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays as the kernel finds them -/

abbrev X1 (c : Dev nD) : Act := V m c main_arg0
abbrev X2 (c : Dev nD) : Act := V m c main_arg1
abbrev WQ (c : Dev nD) : Wgt := V m c main_v0
abbrev WK (c : Dev nD) : Wgt := V m c main_v1
abbrev WV (c : Dev nD) : Wgt := V m c main_v2

/-- What the result array ends holding. -/
abbrev result (c : Dev nD) : Act := attn (X1 m c) (X2 m c) (WQ m c) (WK m c) (WV m c)

/-! ## Grid points -/

/-- The batch element of a grid point. -/
def bat (t : Fin cfg0.N) : Fin 4 := ⟨t.val / 8, by have := t.isLt; have h : cfg0.N = 32 := N_0; omega⟩
/-- Row `r` of a grid point's query block, as a row of the sequence. -/
def qrow (t : Fin cfg0.N) (r : Fin 256) : Fin 2048 := ⟨256 * (t.val % 8) + r.val, by have := r.isLt; omega⟩

/-- The printed index maps, decided over the 32 points. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 8 ∧ win0_5.index t (1 : Fin 3) = t.val % 8 ∧ win0_5.index t (2 : Fin 3) = 0 :=
  (by decide +kernel : ∀ t : Fin grid0.N, _)

/-! ## The input blocks, in array coordinates -/

theorem blk0_apply (c : Dev nD) (t : Fin cfg0.N) (r : Fin 256) (i : Fin 1024) :
    (iblk m c 0 t : FVec Ideal S1x256x1024 .f32) (ix3 (0 : Fin 1) r i) = X1 m c (ix3 (bat t) (qrow t r) i) := by
  obtain ⟨e0, e1, e2, -⟩ := idx_facts t
  show V m c main_arg0 (((cfg0.win 0).blk t).view.emb (ix3 (0 : Fin 1) r i)) = V m c main_arg0 (ix3 (bat t) (qrow t r) i)
  refine congrArg (V m c main_arg0) (funext fun a => Fin.ext ?_)
  match a with
  | ⟨0, _⟩ => show win0_0.index t (0 : Fin 3) * 1 + 1 * 0 = t.val / 8; omega
  | ⟨1, _⟩ => show win0_0.index t (1 : Fin 3) * 256 + 1 * r.val = 256 * (t.val % 8) + r.val; omega
  | ⟨2, _⟩ => show win0_0.index t (2 : Fin 3) * 1024 + 1 * i.val = i.val; omega

theorem blk1_apply (c : Dev nD) (t : Fin cfg0.N) (s : Fin 2048) (i : Fin 1024) :
    (iblk m c 1 t : FVec Ideal S1x2048x1024 .f32) (ix3 (0 : Fin 1) s i) = X2 m c (ix3 (bat t) s i) := by
  obtain ⟨-, -, -, e0, e1, e2, -⟩ := idx_facts t
  show V m c main_arg1 (((cfg0.win 1).blk t).view.emb (ix3 (0 : Fin 1) s i)) = V m c main_arg1 (ix3 (bat t) s i)
  refine congrArg (V m c main_arg1) (funext fun a => Fin.ext ?_)
  match a with
  | ⟨0, _⟩ => show win0_1.index t (0 : Fin 3) * 1 + 1 * 0 = t.val / 8; omega
  | ⟨1, _⟩ => show win0_1.index t (1 : Fin 3) * 2048 + 1 * s.val = s.val; omega
  | ⟨2, _⟩ => show win0_1.index t (2 : Fin 3) * 1024 + 1 * i.val = i.val; omega

theorem blk2_apply (c : Dev nD) (t : Fin cfg0.N) (o i : Fin 1024) :
    (iblk m c 2 t : FVec Ideal S1024x1024 .bf16) (ix2 o i) = WQ m c (ix2 o i) := by
  obtain ⟨-, -, -, -, -, -, e0, e1, -⟩ := idx_facts t
  show V m c main_v0 (((cfg0.win 2).blk t).view.emb (ix2 o i)) = V m c main_v0 (ix2 o i)
  refine congrArg (V m c main_v0) (funext fun a => Fin.ext ?_)
  match a with
  | ⟨0, _⟩ => show win0_2.index t (0 : Fin 2) * 1024 + 1 * o.val = o.val; omega
  | ⟨1, _⟩ => show win0_2.index t (1 : Fin 2) * 1024 + 1 * i.val = i.val; omega

theorem blk3_apply (c : Dev nD) (t : Fin cfg0.N) (o i : Fin 1024) :
    (iblk m c 3 t : FVec Ideal S1024x1024 .bf16) (ix2 o i) = WK m c (ix2 o i) := by
  obtain ⟨-, -, -, -, -, -, -, -, e0, e1, -⟩ := idx_facts t
  show V m c main_v1 (((cfg0.win 3).blk t).view.emb (ix2 o i)) = V m c main_v1 (ix2 o i)
  refine congrArg (V m c main_v1) (funext fun a => Fin.ext ?_)
  match a with
  | ⟨0, _⟩ => show win0_3.index t (0 : Fin 2) * 1024 + 1 * o.val = o.val; omega
  | ⟨1, _⟩ => show win0_3.index t (1 : Fin 2) * 1024 + 1 * i.val = i.val; omega

theorem blk4_apply (c : Dev nD) (t : Fin cfg0.N) (o i : Fin 1024) :
    (iblk m c 4 t : FVec Ideal S1024x1024 .bf16) (ix2 o i) = WV m c (ix2 o i) := by
  obtain ⟨-, -, -, -, -, -, -, -, -, -, e0, e1, -⟩ := idx_facts t
  show V m c main_v2 (((cfg0.win 4).blk t).view.emb (ix2 o i)) = V m c main_v2 (ix2 o i)
  refine congrArg (V m c main_v2) (funext fun a => Fin.ext ?_)
  match a with
  | ⟨0, _⟩ => show win0_4.index t (0 : Fin 2) * 1024 + 1 * o.val = o.val; omega
  | ⟨1, _⟩ => show win0_4.index t (1 : Fin 2) * 1024 + 1 * i.val = i.val; omega

/-! ## The stored rows -/

/-- Rows computed from a block that is batch element `b` of `X`, with weights `W`, are that element's layer rows. -/
theorem kvRows_of_blocks (x : FVec Ideal S1x2048x1024 .f32) (w : FVec Ideal S1024x1024 .bf16) (X : Act) (W : Wgt) (b : Fin 4)
    (hx : ∀ (s : Fin 2048) (i : Fin 1024), x (ix3 (0 : Fin 1) s i) = X (ix3 b s i))
    (hw : ∀ o i : Fin 1024, w (ix2 o i) = W (ix2 o i)) :
    kvRows x w = fun j => rows X W b (j 0) (j 1) := by
  funext j
  obtain ⟨p, o, rfl⟩ : ∃ (p : Fin 2048) (o : Fin 1024), j = ix2 p o := ⟨j 0, j 1, eq_ix2 j⟩
  rw [kvRows_apply]
  show _ = ∑ i : Fin 1024, X (ix3 b p i) * W (ix2 o i)
  exact Finset.sum_congr rfl fun i _ => by rw [hx, hw]

/-- The key rows of batch element `b`. -/
def keyRows (c : Dev nD) (b : Fin 4) : FVec Ideal S2048x1024 .bf16 := fun j => rows (X2 m c) (WK m c) b (j 0) (j 1)
/-- The value rows of batch element `b`. -/
def valRows (c : Dev nD) (b : Fin 4) : FVec Ideal S2048x1024 .bf16 := fun j => rows (X2 m c) (WV m c) b (j 0) (j 1)

theorem keys_of_point (c : Dev nD) (t : Fin cfg0.N) : k0_pay2 (F := Ideal) (iblk m c 1 t) (iblk m c 3 t) = keyRows m c (bat t) :=
  (pay2_eq (iblk m c 1 t) (iblk m c 3 t)).trans
    (kvRows_of_blocks (iblk m c 1 t) (iblk m c 3 t) (X2 m c) (WK m c) (bat t) (blk1_apply m c t) (blk3_apply m c t))

theorem vals_of_point (c : Dev nD) (t : Fin cfg0.N) : k0_pay3 (F := Ideal) (iblk m c 1 t) (iblk m c 4 t) = valRows m c (bat t) :=
  (pay3_eq (iblk m c 1 t) (iblk m c 4 t)).trans
    (kvRows_of_blocks (iblk m c 1 t) (iblk m c 4 t) (X2 m c) (WV m c) (bat t) (blk1_apply m c t) (blk4_apply m c t))

/-- At a batch element's first point the stores are written with its rows. -/
theorem stored_first (c : Dev nD) (t : Fin cfg0.N) (h0 : t.val % 8 = 0) :
    (outsAt0 m c t.val t.isLt).2.1 = keyRows m c (bat t) ∧ (outsAt0 m c t.val t.isLt).2.2 = valRows m c (bat t) := by
  rw [outsAt0_A m c t h0]
  dsimp only
  exact ⟨(keys_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).trans (keys_of_point m c t),
    (vals_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).trans (vals_of_point m c t)⟩

/-- At its other points they are what the point before left. -/
theorem stored_later (c : Dev nD) (t : Fin cfg0.N) (h0 : ¬t.val % 8 = 0) :
    (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_B m c t h0]
  exact ⟨rfl, rfl⟩

/-- AFTER EVERY POINT the stores hold the rows of the point's batch element. -/
theorem stored (c : Dev nD) : ∀ (n : ℕ) (h : n < cfg0.N),
    (outsAt0 m c n h).2.1 = keyRows m c (bat ⟨n, h⟩) ∧ (outsAt0 m c n h).2.2 = valRows m c (bat ⟨n, h⟩)
  | 0, h => stored_first m c ⟨0, h⟩ rfl
  | n + 1, h => by
    by_cases h0 : (n + 1) % 8 = 0
    · exact stored_first m c ⟨n + 1, h⟩ h0
    · have hl := stored_later m c ⟨n + 1, h⟩ h0
      have ih := stored c n (Nat.lt_of_succ_lt h)
      have hb : bat ⟨n + 1, h⟩ = bat ⟨n, Nat.lt_of_succ_lt h⟩ := Fin.ext (by show (n + 1) / 8 = n / 8; omega)
      rw [hb]
      exact ⟨hl.1.trans ih.1, hl.2.trans ih.2⟩

/-! ## What a point writes back -/

/-- The output buffer after point `t`: the block's attention against the rows of its batch element. -/
theorem out_point (c : Dev nD) (t : Fin cfg0.N) :
    (outsAt0 m c t.val t.isLt).1 = outBlock (iblk m c 0 t) (iblk m c 2 t) (keyRows m c (bat t)) (valRows m c (bat t)) := by
  by_cases h0 : t.val % 8 = 0
  · rw [outsAt0_A m c t h0]
    dsimp only
    refine (out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).trans ?_
    rw [keys_of_point m c t, vals_of_point m c t]
    exact pay4_eq (iblk m c 0 t) (iblk m c 2 t) (keyRows m c (bat t)) (valRows m c (bat t))
  · have hs := stored m c t.val t.isLt
    have hl := stored_later m c t h0
    rw [outsAt0_B m c t h0]
    dsimp only
    refine (out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2).trans ?_
    rw [← hl.1, ← hl.2, hs.1, hs.2]
    exact pay4_eq (iblk m c 0 t) (iblk m c 2 t) (keyRows m c (bat t)) (valRows m c (bat t))

/-- The query layer of a block's row, when the block is rows of batch element `b` of `X`: the layer's row. -/
theorem qrow_of_blocks (x : FVec Ideal S1x256x1024 .f32) (w : FVec Ideal S1024x1024 .bf16) (X : Act) (W : Wgt) (b : Fin 4)
    (s : Fin 2048) (r : Fin 256) (hx : ∀ i : Fin 1024, x (ix3 (0 : Fin 1) r i) = X (ix3 b s i))
    (hw : ∀ o i : Fin 1024, w (ix2 o i) = W (ix2 o i)) :
    (fun o : Fin 1024 => ∑ i : Fin 1024, x (ix3 (0 : Fin 1) r i) * w (ix2 o i)) = row X W b s := by
  funext o
  show _ = ∑ i : Fin 1024, X (ix3 b s i) * W (ix2 o i)
  exact Finset.sum_congr rfl fun i _ => by rw [hx, hw]

/-- WHAT POINT `t` WRITES BACK is block `t` of the attention map. -/
theorem flushed_eq (c : Dev nD) (t : Fin cfg0.N) :
    (dats m 0 c).flushed 5 t = ((cfg0.win 5).blk t).view.read (Elt Ideal) (result m c) := by
  rw [flushed5, out_point]
  obtain ⟨-, -, -, -, -, -, -, -, -, -, -, -, e0, e1, e2⟩ := idx_facts t
  refine funext fun (y : S1x256x1024.Idx) => ?_
  obtain ⟨u, r, d, rfl⟩ : ∃ (u : Fin 1) (r : Fin 256) (d : Fin 1024), y = ix3 u r d := ⟨y 0, y 1, y 2, eq_ix3 y⟩
  obtain rfl : u = 0 := Subsingleton.elim _ _
  show outBlock (iblk m c 0 t) (iblk m c 2 t) (keyRows m c (bat t)) (valRows m c (bat t)) (ix3 (0 : Fin 1) r d)
    = result m c (((cfg0.win 5).blk t).view.emb (ix3 (0 : Fin 1) r d))
  have he : ((cfg0.win 5).blk t).view.emb (ix3 (0 : Fin 1) r d) = ix3 (bat t) (qrow t r) d := funext fun a => Fin.ext (by
    match a with
    | ⟨0, _⟩ => show win0_5.index t (0 : Fin 3) * 1 + 1 * 0 = t.val / 8; omega
    | ⟨1, _⟩ => show win0_5.index t (1 : Fin 3) * 256 + 1 * r.val = 256 * (t.val % 8) + r.val; omega
    | ⟨2, _⟩ => show win0_5.index t (2 : Fin 3) * 1024 + 1 * d.val = d.val; omega)
  rw [he]
  refine (outBlock_apply (iblk m c 0 t) (iblk m c 2 t) (keyRows m c (bat t)) (valRows m c (bat t)) r d).trans ?_
  rw [qrow_of_blocks (iblk m c 0 t) (iblk m c 2 t) (X1 m c) (WQ m c) (bat t) (qrow t r) r (blk0_apply m c t r) (blk2_apply m c t)]
  rfl

/-! ## The blocks tile the result -/

theorem mem_blk (t : Fin cfg0.N) (i : S4x2048x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v3).slice (win0_5.rect t)).set ↔ _
  rw [View.set_slice_whole, Rect.mem_set_unit]
  exact Iff.rfl

/-- Row `(b, s)` of the result lies in the block of point `8·b + s / 256`. -/
theorem cover (i : S4x2048x1024.Idx) : ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 1024 := (i 2).isLt
  have hN : cfg0.N = 32 := N_0
  have hlt : 8 * (i 0).val + (i 1).val / 256 < cfg0.N := by omega
  obtain ⟨-, -, -, -, -, -, -, -, -, -, -, -, e0, e1, e2⟩ := idx_facts ⟨8 * (i 0).val + (i 1).val / 256, hlt⟩
  have e0' : win0_5.index ⟨8 * (i 0).val + (i 1).val / 256, hlt⟩ (0 : Fin 3) = (8 * (i 0).val + (i 1).val / 256) / 8 := e0
  have e1' : win0_5.index ⟨8 * (i 0).val + (i 1).val / 256, hlt⟩ (1 : Fin 3) = (8 * (i 0).val + (i 1).val / 256) % 8 := e1
  clear e0 e1
  refine ⟨⟨8 * (i 0).val + (i 1).val / 256, hlt⟩, flush0_5 _, ?_⟩
  rw [mem_blk]
  intro a
  match a with
  | ⟨0, _⟩ =>
    show win0_5.index ⟨8 * (i 0).val + (i 1).val / 256, hlt⟩ (0 : Fin 3) * 1 ≤ (i 0).val
      ∧ (i 0).val < win0_5.index ⟨8 * (i 0).val + (i 1).val / 256, hlt⟩ (0 : Fin 3) * 1 + 1
    omega
  | ⟨1, _⟩ =>
    show win0_5.index ⟨8 * (i 0).val + (i 1).val / 256, hlt⟩ (1 : Fin 3) * 256 ≤ (i 1).val
      ∧ (i 1).val < win0_5.index ⟨8 * (i 0).val + (i 1).val / 256, hlt⟩ (1 : Fin 3) * 256 + 256
    omega
  | ⟨2, _⟩ =>
    show win0_5.index ⟨8 * (i 0).val + (i 1).val / 256, hlt⟩ (2 : Fin 3) * 1024 ≤ (i 2).val
      ∧ (i 2).val < win0_5.index ⟨8 * (i 0).val + (i 1).val / 256, hlt⟩ (2 : Fin 3) * 1024 + 1024
    omega

/-- THE RESULT ARRAY after the run is the attention map of the arrays the kernel found. -/
theorem final (c : Dev nD) : (dats m 0 c).arrAt 5 cfg0.N = result m c :=
  (dats m 0 c).arrAt_eq_of_cover 5 (result m c) (fun t _ => flushed_eq m c t) cover

/-! ## The arrays the kernel found are the arguments -/

/-- The weights reach the kernel through a change of float format only. -/
theorem WQ_eq (c : Dev nD) : WQ m c = (m ((c : Thread nD τ).loc main_arg2) : Wgt) := by
  show (V m c main_v0 : S1024x1024.Idx → EReal) = _
  dsimp only [Gen.V, Gen.hostOps0]
  after_results
  rfl
theorem WK_eq (c : Dev nD) : WK m c = (m ((c : Thread nD τ).loc main_arg3) : Wgt) := by
  show (V m c main_v1 : S1024x1024.Idx → EReal) = _
  dsimp only [Gen.V, Gen.hostOps0]
  after_results
  rfl
theorem WV_eq (c : Dev nD) : WV m c = (m ((c : Thread nD τ).loc main_arg4) : Wgt) := by
  show (V m c main_v2 : S1024x1024.Idx → EReal) = _
  dsimp only [Gen.V, Gen.hostOps0]
  after_results
  rfl

theorem result_eq (c : Dev nD) : result m c
    = attn (m ((c : Thread nD τ).loc main_arg0)) (m ((c : Thread nD τ).loc main_arg1)) (m ((c : Thread nD τ).loc main_arg2))
        (m ((c : Thread nD τ).loc main_arg3)) (m ((c : Thread nD τ).loc main_arg4)) := by
  show attn (X1 m c) (X2 m c) (WQ m c) (WK m c) (WV m c) = _
  rw [WQ_eq, WK_eq, WV_eq]
  show attn (V m c main_arg0) (V m c main_arg1) _ _ _ = _
  rw [V_main_arg0, V_main_arg1]

/-- THE KERNEL'S RUN: every weakly fair execution ends with the result array at the attention map of the argument
    arrays, the arguments unchanged. -/
theorem run : θ_run defs (onTc (τ := τ) (main (F := Ideal))) ⟨m, fun _ => 0, ρ⟩ fun r => ∀ c : Dev nD,
      r.2.mem ((c : Thread nD τ).loc main_v3)
        = attn (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (result_eq m c)), (h c).2⟩)
    (run_blocks m ρ)

end Cert.KernelIdeal.Grid

end
-- ==== Proof.lean ====
/-
  A fused attention kernel against its einsum reference, over the extended reals.

  Both programs compute, for queries from `x1` and keys / values from `x2` through three linear layers without
  bias, `softmax(q · kᵀ / 32) · v` within each of the 4 batch elements. The kernel tiles the 2048 query rows in
  blocks of 256 and computes a batch element's key and value rows once, at its first block, keeping them for the
  other seven; it rounds to a narrow float format between its matrix products. Over the extended reals a change of
  format is the identity and a sum or a maximum does not depend on its order or tiling, so both sides are the one
  map `AttnSpec.attn` of the argument arrays:

    * the reference (RefIsAttn): its einsums are the layers and the two contractions, its softmax the shifted
      exponentials over their sum; its extra `max(-∞, ·)` is absorbed;
    * the kernel (KernelRows, GridPieces, GridRun): one block's arithmetic read at an index; after every grid
      point the kept rows are those of the point's batch element (induction on the point); each point writes its
      block of the map and the 32 blocks tile the result.

  No step divides out or distributes, so the inputs' finiteness is never used.
  The frames of the two kernel programs are the generated ones; the reference's is its generated run with the
  result dropped; the idealization rewrote nothing, so `preserves` is `True`.
-/
import proofs.«130732_j39676907887708_2_alg».proof.Defs
import proofs.«130732_j39676907887708_2_alg».proof.Proof.Gen.Kernel
import proofs.«130732_j39676907887708_2_alg».proof.Proof.Gen.Kernel.Skeleton
import proofs.«130732_j39676907887708_2_alg».proof.Proof.Gen.Kernel.Launch
import proofs.«130732_j39676907887708_2_alg».proof.Proof.Gen.Kernel.Points
import proofs.«130732_j39676907887708_2_alg».proof.Proof.Gen.Kernel.Frame
import proofs.«130732_j39676907887708_2_alg».proof.Proof.Gen.KernelIdeal
import proofs.«130732_j39676907887708_2_alg».proof.Proof.Gen.KernelIdeal.Skeleton
import proofs.«130732_j39676907887708_2_alg».proof.Proof.Gen.KernelIdeal.Launch
import proofs.«130732_j39676907887708_2_alg».proof.Proof.Gen.KernelIdeal.Points
import proofs.«130732_j39676907887708_2_alg».proof.Proof.Gen.KernelIdeal.Frame
import proofs.«130732_j39676907887708_2_alg».proof.Proof.Gen.ReferenceIdeal
import proofs.«130732_j39676907887708_2_alg».proof.Proof.Gen.Pre_finite_inputs
import proofs.«130732_j39676907887708_2_alg».proof.Proof.Gen.KernelIdeal.Value
import proofs.«130732_j39676907887708_2_alg».proof.Proof.Gen.ReferenceIdeal.Run
import proofs.«130732_j39676907887708_2_alg».proof.Proof.Gen.ReferenceIdeal.Read
import proofs.«130732_j39676907887708_2_alg».proof.Proof.RefIsAttn
import proofs.«130732_j39676907887708_2_alg».proof.Proof.GridRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the attention map of the (agreeing) argument arrays. -/
theorem algebraic : Cert.algebraic_KernelIdeal_ReferenceIdeal := by
  intro m ρ m' ρ' _ hagree
  refine ⟨_, Cert.KernelIdeal.Grid.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
